-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : IVec S2x1250000 32) (main_arg3 : FVec F S1250000 .f32) (main_arg4 : FVec F S64x64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1250000 .f32 := Host.absf main_arg3
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 38
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1250000, .i32⟩
  | .hbm, ⟨3, _⟩ => ⟨S1250000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S1x64, .f32⟩
  | .hbm, ⟨10, _⟩ => ⟨S100000x64, .bf16⟩
  | .hbm, ⟨11, _⟩ => ⟨S100000x64, .f32⟩
  | .hbm, ⟨12, _⟩ => ⟨S1x1250000, .i32⟩
  | .hbm, ⟨13, _⟩ => ⟨S1250000, .i32⟩
  | .hbm, ⟨14, _⟩ => ⟨S1x1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .bf16⟩
  | .hbm, ⟨25, _⟩ => ⟨S1250000x64, .f32⟩
  | .hbm, ⟨26, _⟩ => ⟨S1250000x1, .f32⟩
  | .hbm, ⟨27, _⟩ => ⟨S1250000x64, .f32⟩
  | .hbm, ⟨28, _⟩ => ⟨S1250000x64, .f32⟩
  | .hbm, ⟨29, _⟩ => ⟨S_, .i32⟩
  | .hbm, ⟨30, _⟩ => ⟨S1250000, .i32⟩
  | .hbm, ⟨31, _⟩ => ⟨S1250000, .i1⟩
  | .hbm, ⟨32, _⟩ => ⟨S_, .i32⟩
  | .hbm, ⟨33, _⟩ => ⟨S1250000, .i32⟩
  | .hbm, ⟨34, _⟩ => ⟨S1250000, .i32⟩
  | .hbm, ⟨35, _⟩ => ⟨S1250000, .i32⟩
  | .hbm, ⟨36, _⟩ => ⟨S1250000x1, .i32⟩
  | .hbm, ⟨37, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .bf16⟩
  | .local _ .vmem, ⟨8, _⟩ => ⟨S5000x64, .bf16⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .bf16 = 32 ∨ (Rect.block (s := S100000x64) S5000x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S1x1250000 : Shape := ⟨2, ![1, 1250000]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1250000, .i32⟩
  | .hbm, ⟨3, _⟩ => ⟨S1250000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S64x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S64x64, .f32⟩
  | .hbm, ⟨17, _⟩ => ⟨S100000x64, .f32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000x64, .f32⟩
  | .hbm, ⟨27, _⟩ => ⟨S1250000x1, .f32⟩
  | .hbm, ⟨28, _⟩ => ⟨S1250000x64, .f32⟩
  | .hbm, ⟨29, _⟩ => ⟨S1250000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.RowsTimesMatrix.lean ====
/-
  One linear layer applied to every row of a table.

  A table X has 64 numbers per row; a weight matrix W is 64 × 64. "Rows times W" is the table whose entry (r, o) is the
  sum over the 64 input coordinates c of X(r, c) · W(c, o). This file names that table once (`rowsTimes`, for a table
  of any number of rows) and shows that three ways of computing it — the host's general matrix product over the whole
  table, the matrix unit's product of one tile of 5000 rows into an accumulator of zeros, and the same product read one
  tile at a time — all give it, entry by entry, at the exact extended reals. It also reads the two ways a bias vector of
  64 numbers is laid over the rows: as a [1, 64] row broadcast over a tile, and as a vector broadcast first to [1, 64]
  and then over the whole table. In both, entry (r, o) is the bias at o.

  No law of the extended reals beyond "the same sum of the same products" is used, so nothing here asks the inputs to
  be finite.
-/
import Idealize.ShloMosaic.PureOps.Ideal.Laws
import Idealize.ShloMosaic.Lib.ValueIdx
import Idealize.ShloMosaic.Lib.ValueLayout
import Idealize.ShloMosaic.Lib.Pipeline.Value
import proofs.«150834_j23124103921910_2_alg».proof.Proof.LibPlainMatmul
import proofs.«150834_j23124103921910_2_alg».proof.Proof.LibPlainDotGeneral

open scoped BigOperators

noncomputable section

namespace Cert.Linear

open Idealize.ShloMosaic Idealize.ShloMosaic.ValueIdx

/-- The whole table: 100000 rows of 64 numbers. -/
abbrev Table : Shape := ⟨2, ![100000, 64]⟩
/-- One tile of the table: 5000 consecutive rows. -/
abbrev Tile : Shape := ⟨2, ![5000, 64]⟩
/-- A weight matrix, input coordinate first. -/
abbrev Weights : Shape := ⟨2, ![64, 64]⟩
/-- A bias vector. -/
abbrev Bias : Shape := ⟨1, ![64]⟩
/-- The bias as a single row. -/
abbrev BiasRow : Shape := ⟨2, ![1, 64]⟩

/-- Rows times `W`: entry `(r, o)` is `∑ c, X (r, c) * W (c, o)`. -/
def rowsTimes {n : ℕ} (X : (⟨2, ![n, 64]⟩ : Shape).Idx → EReal) (W : Weights.Idx → EReal) :
    (⟨2, ![n, 64]⟩ : Shape).Idx → EReal :=
  fun i => ∑ c : Fin 64, X (ix2 (i 0) c) * W (ix2 c (i 1))

theorem rowsTimes_ix2 {n : ℕ} (X : (⟨2, ![n, 64]⟩ : Shape).Idx → EReal) (W : Weights.Idx → EReal) (r : Fin n) (o : Fin 64) :
    rowsTimes X W (ix2 r o) = ∑ c : Fin 64, X (ix2 r c) * W (ix2 c o) := rfl

/-- Rows times `W`, plus the bias at the entry's column: entry `(r, o)` is `∑ c, X (r, c) * W (c, o) + b o`. -/
def affineRows (X : Table.Idx → EReal) (W : Weights.Idx → EReal) (b : Bias.Idx → EReal) : Table.Idx → EReal :=
  fun i => rowsTimes X W i + b (ix1 (i 1))

/-- A tile that is rows `5000 t, …, 5000 t + 4999` of the table has, at its local index `j`, the table's rows times `W`
    at the matching index of the table: the sum runs over the same products. -/
theorem rowsTimes_tile (Xt : Tile.Idx → EReal) (X : Table.Idx → EReal) (W : Weights.Idx → EReal) (t : ℕ)
    (hX : ∀ (y : Tile.Idx) (k : Table.Idx), (k 0).val = 5000 * t + (y 0).val → (k 1).val = (y 1).val → Xt y = X k)
    (j : Tile.Idx) (i : Table.Idx) (hi0 : (i 0).val = 5000 * t + (j 0).val) (hi1 : (i 1).val = (j 1).val) :
    rowsTimes Xt W j = rowsTimes X W i := by
  unfold rowsTimes
  refine Finset.sum_congr rfl fun c _ => ?_
  have e1 : (i 1 : Fin 64) = (j 1 : Fin 64) := Fin.ext hi1
  rw [hX (ix2 (j 0) c) (ix2 (i 0) c) hi0 rfl, e1]

/-- The host's matrix product of the whole table by `W` is rows times `W`. -/
theorem dotGeneral_eq_rowsTimes {φ₁ φ₂ : FTy}
    (w : DotDims.WF Table Weights Table [1] [0] [0] [1] [] []) (prec : Option ContractPrecision)
    (X : FVec Ideal Table φ₁) (W : FVec Ideal Weights φ₂) :
    Host.dotGeneral (⟨[1], [0], [0], [1], [], [], w⟩ : DotDims Table Weights Table) prec X W = rowsTimes X W := by
  funext i
  rw [eq_ix2 i]
  exact dotGeneral_plain_apply w prec X W (i 0) (i 1)

/-- The matrix unit's product of one tile by `W`, started from zeros, is the tile's rows times `W`. -/
theorem matmul_eq_rowsTimes {φ₁ φ₂ : FTy}
    (w : DotDims.WF Tile Weights Tile [1] [0] [0] [1] [] []) (prec : Option ContractPrecision)
    (X : FVec Ideal Tile φ₁) (W : FVec Ideal Weights φ₂) :
    matmul (⟨[1], [0], [0], [1], [], [], w⟩ : DotDims Tile Weights Tile) prec X W
        (constant (F := Ideal) Tile .f32 0x00000000#32) = rowsTimes X W := by
  funext j
  rw [eq_ix2 j]
  exact matmul_plain_zero_apply w prec X W (j 0) (j 1)

/-- The bias vector laid as one row and that row laid over every row of the table: entry `(r, o)` is the bias at `o`. -/
theorem bias_over_table (h1 : Bias.BroadcastsInDim BiasRow (![1] : Fin 1 → Fin 2))
    (h2 : BiasRow.BroadcastsInDim Table (![0, 1] : Fin 2 → Fin 2)) (b : Bias.Idx → EReal) (i : Table.Idx) :
    broadcastInDim Table ![0, 1] h2 (broadcastInDim BiasRow ![1] h1 b) i = b (ix1 (i 1)) := by
  refine (broadcastInDim_apply ![0, 1] h2 _ i (ix2 (0 : Fin 1) (i 1)) (fun a => by
    match a with
    | ⟨0, _⟩ => rfl
    | ⟨1, _⟩ => rfl)).trans ?_
  exact broadcastInDim_apply ![1] h1 b (ix2 (0 : Fin 1) (i 1)) (ix1 (i 1)) (fun a => by
    match a with
    | ⟨0, _⟩ => rfl)

/-- A one-row bias laid over every row of a tile: entry `(p, o)` is the row's entry `o`. -/
theorem bias_over_tile (hc : BiasRow.ShapeCasts BiasRow) (hb : BiasRow.Broadcasts Tile) (v : BiasRow.Idx → EReal) (j : Tile.Idx) :
    broadcastTo Tile (shapeCast BiasRow v hc) hb j = v (ix2 (0 : Fin 1) (j 1)) := by
  rw [shapeCast_self, eq_ix2 j]
  exact broadcastTo_1b_ab_apply v hb (j 0) (j 1)

end Cert.Linear

end
-- ==== Proof.TileStores.lean ====
/-
  What the kernel body stores, as tables.

  At a grid point the body loads one tile of 5000 rows of each feature table, the two 64 × 64 weight matrices (already
  transposed, input coordinate first) and the bias as one row. It rounds the loaded values to a shorter float format,
  multiplies each tile by its matrix on the matrix unit starting from zeros, adds the bias row to the second product,
  and stores the first product (rounded again) and the second sum. At the exact extended reals a change of float
  format is the identity, so the first stored tile is the neighbour tile's rows times its matrix, and the second is the
  own tile's rows times its matrix plus the bias at the entry's column.
-/
import proofs.«150834_j23124103921910_2_alg».proof.Proof.Gen.KernelIdeal.Skeleton
import proofs.«150834_j23124103921910_2_alg».proof.Proof.RowsTimesMatrix

open scoped BigOperators

noncomputable section

namespace Cert.KernelIdeal.TileValue

open Cert.KernelIdeal Cert.KernelIdeal.Gen Cert.Linear Idealize.ShloMosaic Idealize.ShloMosaic.ValueIdx

/-- The tile stored for the neighbour features: the loaded tile's rows times the loaded matrix. -/
theorem neighbour_tile (x : Vec Ideal S5000x64 .f32) (w : Vec Ideal S64x64 .f32) :
    k0_pay2 (F := Ideal) x w = rowsTimes x w := by
  funext j
  unfold k0_pay2
  show matmul (φ₁ := .bf16) (φ₂ := .bf16) dot_S5000x64_S64x64_S5000x64_1_0_0_1_n_n none x (shapeCast S64x64 w Facts₀.shapeCasts_S64x64_S64x64)
      (constant (F := Ideal) S5000x64 .f32 0x00000000#32) j = _
  rw [shapeCast_self]
  exact congrFun (matmul_eq_rowsTimes (φ₁ := .bf16) (φ₂ := .bf16) _ none x w) j

/-- The tile stored for the own features: the loaded tile's rows times the loaded matrix, plus the bias row's entry
    at the column. -/
theorem own_tile (x : Vec Ideal S5000x64 .f32) (w : Vec Ideal S64x64 .f32) (b : Vec Ideal S1x64 .f32) :
    k0_pay1 (F := Ideal) x w b = fun j => rowsTimes x w j + b (ix2 (0 : Fin 1) (j 1)) := by
  funext j
  unfold k0_pay1
  show matmul (φ₁ := .bf16) (φ₂ := .bf16) dot_S5000x64_S64x64_S5000x64_1_0_0_1_n_n none x (shapeCast S64x64 w Facts₀.shapeCasts_S64x64_S64x64)
      (constant (F := Ideal) S5000x64 .f32 0x00000000#32) j
      + broadcastTo S5000x64 (shapeCast S1x64 b Facts₀.shapeCasts_S1x64_S1x64) Facts₀.broadcasts_S1x64_S5000x64 j = _
  rw [shapeCast_self, bias_over_tile]
  exact congrArg (· + b (ix2 (0 : Fin 1) (j 1))) (congrFun (matmul_eq_rowsTimes (φ₁ := .bf16) (φ₂ := .bf16) _ none x w) j)

end Cert.KernelIdeal.TileValue

end
-- ==== Proof.TablesAfterRegion.lean ====
/-
  The two tables the kernel region leaves behind.

  The region walks twenty grid points. At point t each feature table contributes its tile of rows 5000 t … 5000 t + 4999,
  the two transposed weight matrices and the bias row are staged whole, and the body's two stores are written back to
  rows 5000 t … of the two result tables. A stored tile is a function of its rows of the feature table only, so what
  point t writes back is exactly tile t of ONE table-sized function: the neighbour features' rows times the transposed
  neighbour weights, and the own features' rows times the transposed own weights plus the bias. The twenty tiles cover all
  100000 rows (row r is in tile r / 5000), so after the region the two result tables hold those two functions everywhere.

  The weights the region finds are the host's transposes of the weight arguments, and the bias row is the bias vector
  recast as a 1 × 64 matrix; both are kept as the host wrote them, and the bias row is read back as the vector.
-/
import proofs.«150834_j23124103921910_2_alg».proof.Proof.Gen.KernelIdeal.Frame
import proofs.«150834_j23124103921910_2_alg».proof.Proof.TileStores
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.TileValue Cert.Linear Idealize.ShloMosaic.ValueIdx

variable (m : (ℓ : Loc nD τ sig) → Buf (Elt Ideal) ℓ)

theorem zero_offsets : (![0, 0] : Fin 2 → Nat) = fun _ => 0 := funext fun a => by fin_cases a <;> rfl

/-- Where each window's block sits at point `t`: the tiled tables at block row `t`, the staged-whole operands at the
    origin. Decided over the twenty points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## What the region finds in the operands the host prepared -/

/-- The neighbour weights as staged: the host's transpose of the neighbour weight argument. -/
theorem neighbour_weights (c : Dev nD) :
    (V m c main_v0 : S64x64.Idx → EReal)
      = transpose S64x64 [1, 0] (m ((c : Thread nD τ).loc main_arg4)) Facts₀.transposes_S64x64_S64x64_1_0 := by
  show StableHlo.after hostOps0 (fun b => m (c, b)) (Proc.devRef .tc main_v0) = _
  after_results

/-- The own weights as staged: the host's transpose of the own weight argument. -/
theorem own_weights (c : Dev nD) :
    (V m c main_v1 : S64x64.Idx → EReal)
      = transpose S64x64 [1, 0] (m ((c : Thread nD τ).loc main_arg5)) Facts₀.transposes_S64x64_S64x64_1_0 := by
  show StableHlo.after hostOps0 (fun b => m (c, b)) (Proc.devRef .tc main_v1) = _
  after_results

/-- The bias row as staged: the bias vector recast as one row. -/
theorem bias_row (c : Dev nD) :
    (V m c main_v2 : S1x64.Idx → EReal)
      = shapeCast S1x64 (m ((c : Thread nD τ).loc main_arg6)) Facts₀.shapeCasts_S64_S1x64 := by
  show StableHlo.after hostOps0 (fun b => m (c, b)) (Proc.devRef .tc main_v2) = _
  after_results
  rfl

/-! ## The input blocks at a point -/

/-- The neighbour features' block at point `t` is rows `5000 t …` of the neighbour feature table. -/
theorem neighbour_rows (c : Dev nD) (t : Fin cfg0.N) (y : S5000x64.Idx) (k : S100000x64.Idx)
    (hk0 : (k 0).val = 5000 * t.val + (y 0).val) (hk1 : (k 1).val = (y 1).val) :
    (iblk m c 0 t : Vec Ideal S5000x64 .f32) y = V m c main_arg0 k := by
  obtain ⟨e0, e1, -⟩ := block_indices t
  unfold iblk
  rw [View.read_apply]
  show V m c main_arg0 _ = V m c main_arg0 _
  refine congrArg (V m c main_arg0) ?_
  funext a
  apply Fin.ext
  match a with
  | ⟨0, _⟩ => show win0_0.index t 0 * 5000 + 1 * (y 0).val = (k 0).val; rw [e0, hk0]; omega
  | ⟨1, _⟩ => show win0_0.index t 1 * 64 + 1 * (y 1).val = (k 1).val; rw [e1, hk1]; omega

/-- The own features' block at point `t` is rows `5000 t …` of the own feature table. -/
theorem own_rows (c : Dev nD) (t : Fin cfg0.N) (y : S5000x64.Idx) (k : S100000x64.Idx)
    (hk0 : (k 0).val = 5000 * t.val + (y 0).val) (hk1 : (k 1).val = (y 1).val) :
    (iblk m c 1 t : Vec Ideal S5000x64 .f32) y = V m c main_arg1 k := by
  obtain ⟨-, -, e0, e1, -⟩ := block_indices t
  unfold iblk
  rw [View.read_apply]
  show V m c main_arg1 _ = V m c main_arg1 _
  refine congrArg (V m c main_arg1) ?_
  funext a
  apply Fin.ext
  match a with
  | ⟨0, _⟩ => show win0_1.index t 0 * 5000 + 1 * (y 0).val = (k 0).val; rw [e0, hk0]; omega
  | ⟨1, _⟩ => show win0_1.index t 1 * 64 + 1 * (y 1).val = (k 1).val; rw [e1, hk1]; omega

/-- The neighbour weights' block is the whole staged matrix, at every point. -/
theorem neighbour_weights_block (c : Dev nD) (t : Fin cfg0.N) : (iblk m c 2 t : Vec Ideal S64x64 .f32) = V m c main_v0 := by
  obtain ⟨-, -, -, -, e0, e1, -⟩ := block_indices t
  funext y
  unfold iblk
  rw [View.read_apply]
  show V m c main_v0 _ = V m c main_v0 y
  refine congrArg (V m c main_v0) ?_
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

/-- The own weights' block is the whole staged matrix, at every point. -/
theorem own_weights_block (c : Dev nD) (t : Fin cfg0.N) : (iblk m c 3 t : Vec Ideal S64x64 .f32) = V m c main_v1 := by
  obtain ⟨-, -, -, -, -, -, e0, e1, -⟩ := block_indices t
  funext y
  unfold iblk
  rw [View.read_apply]
  show V m c main_v1 _ = V m c main_v1 y
  refine congrArg (V m c main_v1) ?_
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

/-- The bias row's block is the whole staged row, at every point. -/
theorem bias_row_block (c : Dev nD) (t : Fin cfg0.N) : (iblk m c 4 t : Vec Ideal S1x64 .f32) = V m c main_v2 := by
  obtain ⟨-, -, -, -, -, -, -, -, e0, e1, -⟩ := block_indices t
  funext y
  unfold iblk
  rw [View.read_apply]
  show V m c main_v2 _ = V m c main_v2 y
  refine congrArg (V m c main_v2) ?_
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega

/-! ## What each point writes back -/

/-- The neighbour result: the neighbour features' rows times the staged neighbour weights. -/
abbrev neighbourTable (c : Dev nD) : S100000x64.Idx → EReal :=
  rowsTimes (V m c main_arg0) (V m c main_v0)

/-- The own result: the own features' rows times the staged own weights, plus the bias. -/
abbrev ownTable (c : Dev nD) : S100000x64.Idx → EReal :=
  affineRows (V m c main_arg1) (V m c main_v1) (m ((c : Thread nD τ).loc main_arg6))

/-- Point `t` writes back tile `t` of the neighbour result. -/
theorem neighbour_flushed (c : Dev nD) (t : Fin cfg0.N) :
    (dats m 0 c).flushed 5 t = ((cfg0.win 5).blk t).view.read (Elt Ideal) (neighbourTable m c) := by
  show (cfg0.win 5).cut (grid0.coords t) ((dats m 0 c).after 5 t) = _
  rw [after0_5]
  unfold out0_5
  rw [View.canon_unit_zero zero_offsets]
  simp only [View.ld_unit_zero (S := S5000x64) zero_offsets, View.ld_unit_zero (S := S64x64) zero_offsets]
  obtain ⟨-, -, -, -, -, -, -, -, -, -, e0, e1, -⟩ := block_indices t
  funext j
  show k0_pay2 (F := Ideal) (iblk m c 0 t) (iblk m c 2 t) j
      = rowsTimes (V m c main_arg0) (V m c main_v0) (((cfg0.win 5).blk t).view.emb j)
  refine (congrFun (neighbour_tile _ _) j).trans ?_
  rw [neighbour_weights_block m c t]
  refine rowsTimes_tile _ _ _ t.val (fun y k h0 h1 => neighbour_rows m c t y k h0 h1) j _ ?_ ?_
  · show win0_5.index t 0 * 5000 + 1 * (j 0).val = 5000 * t.val + (j 0).val
    rw [e0]; omega
  · show win0_5.index t 1 * 64 + 1 * (j 1).val = (j 1).val
    rw [e1]; omega

/-- Point `t` writes back tile `t` of the own result. -/
theorem own_flushed (c : Dev nD) (t : Fin cfg0.N) :
    (dats m 0 c).flushed 6 t = ((cfg0.win 6).blk t).view.read (Elt Ideal) (ownTable m c) := by
  show (cfg0.win 6).cut (grid0.coords t) ((dats m 0 c).after 6 t) = _
  rw [after0_6]
  unfold out0_6
  rw [View.canon_unit_zero zero_offsets]
  simp only [View.ld_unit_zero (S := S5000x64) zero_offsets, View.ld_unit_zero (S := S64x64) zero_offsets,
    View.ld_unit_zero (S := S1x64) zero_offsets]
  obtain ⟨-, -, -, -, -, -, -, -, -, -, -, -, e0, e1⟩ := block_indices t
  funext j
  show k0_pay1 (F := Ideal) (iblk m c 1 t) (iblk m c 3 t) (iblk m c 4 t) j
      = affineRows (V m c main_arg1) (V m c main_v1) (m ((c : Thread nD τ).loc main_arg6)) (((cfg0.win 6).blk t).view.emb j)
  refine (congrFun (own_tile _ _ _) j).trans ?_
  rw [own_weights_block m c t, bias_row_block m c t, bias_row m c]
  have hcol : ((((cfg0.win 6).blk t).view.emb j) 1 : Fin 64) = (j 1 : Fin 64) := by
    apply Fin.ext
    show win0_6.index t 1 * 64 + 1 * (j 1).val = (j 1).val
    rw [e1]; omega
  unfold affineRows
  refine congrArg₂ (· + ·) ?_ ?_
  · refine rowsTimes_tile _ _ _ t.val (fun y k h0 h1 => own_rows m c t y k h0 h1) j _ ?_ ?_
    · show win0_6.index t 0 * 5000 + 1 * (j 0).val = 5000 * t.val + (j 0).val
      rw [e0]; omega
    · show win0_6.index t 1 * 64 + 1 * (j 1).val = (j 1).val
      rw [e1]; omega
  · rw [hcol]
    exact shapeCast_a_1a_apply _ _ (0 : Fin 1) (j 1)

/-! ## The twenty tiles cover the tables -/

theorem mem_tile5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v3_0).slice (win0_5.rect t)).set ↔ _
  rw [View.set_slice_whole, Rect.mem_set_unit]
  exact Iff.rfl

theorem mem_tile6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v3_1).slice (win0_6.rect t)).set ↔ _
  rw [View.set_slice_whole, Rect.mem_set_unit]
  exact Iff.rfl

/-- Row `r` lies in the tile of point `r / 5000`. -/
theorem covered5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, e0, e1, -⟩ := block_indices t
  have ht : t.val = (i 0).val / 5000 := rfl
  refine ⟨t, flush0_5 t, ?_⟩
  rw [mem_tile5]
  intro a
  match a with
  | ⟨0, _⟩ => show win0_5.index t 0 * 5000 ≤ (i 0).val ∧ (i 0).val < win0_5.index t 0 * 5000 + 5000; rw [e0, ht]; omega
  | ⟨1, _⟩ => show win0_5.index t 1 * 64 ≤ (i 1).val ∧ (i 1).val < win0_5.index t 1 * 64 + 64; rw [e1]; omega

theorem covered6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, -, -, e0, e1⟩ := block_indices t
  have ht : t.val = (i 0).val / 5000 := rfl
  refine ⟨t, flush0_6 t, ?_⟩
  rw [mem_tile6]
  intro a
  match a with
  | ⟨0, _⟩ => show win0_6.index t 0 * 5000 ≤ (i 0).val ∧ (i 0).val < win0_6.index t 0 * 5000 + 5000; rw [e0, ht]; omega
  | ⟨1, _⟩ => show win0_6.index t 1 * 64 ≤ (i 1).val ∧ (i 1).val < win0_6.index t 1 * 64 + 64; rw [e1]; omega

/-! ## The tables after the region -/

/-- After the region the neighbour result table holds the neighbour features' rows times the transposed neighbour
    weights. -/
theorem neighbour_final (c : Dev nD) :
    (dats m 0 c).arrAt 5 cfg0.N
      = rowsTimes (m ((c : Thread nD τ).loc main_arg0))
          (transpose S64x64 [1, 0] (m ((c : Thread nD τ).loc main_arg4)) Facts₀.transposes_S64x64_S64x64_1_0) := by
  rw [(dats m 0 c).arrAt_eq_of_cover 5 (neighbourTable m c) (fun t _ => neighbour_flushed m c t) covered5]
  show rowsTimes (V m c main_arg0) (V m c main_v0) = _
  rw [V_main_arg0, neighbour_weights]

/-- After the region the own result table holds the own features' rows times the transposed own weights, plus the
    bias. -/
theorem own_final (c : Dev nD) :
    (dats m 0 c).arrAt 6 cfg0.N
      = affineRows (m ((c : Thread nD τ).loc main_arg1))
          (transpose S64x64 [1, 0] (m ((c : Thread nD τ).loc main_arg5)) Facts₀.transposes_S64x64_S64x64_1_0)
          (m ((c : Thread nD τ).loc main_arg6)) := by
  rw [(dats m 0 c).arrAt_eq_of_cover 6 (ownTable m c) (fun t _ => own_flushed m c t) covered6]
  show affineRows (V m c main_arg1) (V m c main_v1) _ = _
  rw [V_main_arg1, own_weights]

end Cert.KernelIdeal.RegionValue

end
-- ==== Proof.EdgeMessages.lean ====
/-
  The messages along the edges, and the reference as a whole.

  Both programs finish in the same way. The edge list has two rows of 1250000 node numbers, sources and destinations; a
  negative number counts from the end of the table (100000 is added to it). Every edge takes the row of the neighbour
  table `h` at its source, multiplies it by the edge's weight, and adds the product into the row of the own table `o` at
  its destination; what the host's gather and scatter-add do with a number that is still outside the table is whatever
  those two operations do, the same in both programs. `scatterMessages o h` names that whole chain once, as one function
  of the two tables, the edge list and the weights; nothing in this proof ever looks inside it, so the equality of the
  two results rests only on the two pairs of tables being equal.

  The reference computes `h` as the host's product of the neighbour features by the transposed neighbour weights and `o`
  as the product of the own features by the transposed own weights plus the broadcast bias: entry by entry these are
  rows times the matrix, and rows times the matrix plus the bias at the column.
-/
import proofs.«150834_j23124103921910_2_alg».proof.Proof.Gen.ReferenceIdeal.Run
import proofs.«150834_j23124103921910_2_alg».proof.Proof.RowsTimesMatrix

noncomputable section

open Idealize.ShloMosaic Idealize.ShloMosaic.TcCoe Idealize.SL.Sem

namespace Cert.ReferenceIdeal.Messages

open Cert.ReferenceIdeal Cert.ReferenceIdeal.Gen Cert.Linear Idealize.ShloMosaic.ValueIdx

/-- Node numbers with the negative ones counted from the end of the table. -/
def wrapped (r : IVec S1250000 32) : IVec S1250000 32 :=
  select (cmpi .slt r (broadcastInDim S1250000 ![] Facts₀.bcast_S_S1250000 (constantI S_ 32 0#32)))
    (addi r (broadcastInDim S1250000 ![] Facts₀.bcast_S_S1250000 (constantI S_ 32 100000#32))) r

/-- The edges' sources: the first row of the edge list. -/
def sources (e : IVec S2x1250000 32) : IVec S1250000 32 :=
  wrapped (shapeCast S1250000 (extractStridedSlice S1x1250000 ![0, 0] e Facts₀.slices_S2x1250000_S1x1250000_0_0)
    Facts₀.shapeCasts_S1x1250000_S1250000)

/-- The edges' destinations: the second row of the edge list. -/
def destinations (e : IVec S2x1250000 32) : IVec S1250000 32 :=
  wrapped (shapeCast S1250000 (extractStridedSlice S1x1250000 ![1, 0] e Facts₀.slices_S2x1250000_S1x1250000_1_0)
    Facts₀.shapeCasts_S1x1250000_S1250000)

/-- The own table `o` with every edge's message added in: the neighbour table's row at the edge's source, times the
    edge's weight, added to the row at the edge's destination. -/
def scatterMessages (o h : FVec Ideal S100000x64 .f32) (e : IVec S2x1250000 32) (w : FVec Ideal S1250000 .f32) :
    FVec Ideal S100000x64 .f32 :=
  Host.scatterAdd (F := Ideal) (φ := .f32) scatter_S100000x64_S1250000x1_S1250000x64_1_0_0_1 o
    (broadcastInDim S1250000x1 ![0] Facts₀.bcast_S1250000_S1250000x1_0 (destinations e))
    (mulf (F := Ideal) (φ := .f32)
      (Host.gather gather_S100000x64_S1250000x1_S1250000x64_1_0_n_n_0_1_164 h
        (broadcastInDim S1250000x1 ![0] Facts₀.bcast_S1250000_S1250000x1_0 (sources e)))
      (broadcastInDim S1250000x64 ![0, 1] Facts₀.bcast_S1250000x1_S1250000x64_0_1
        (broadcastInDim S1250000x1 ![0] Facts₀.bcast_S1250000_S1250000x1_0 w)))

/-- The reference's neighbour table is the neighbour features' rows times the transposed neighbour weights. -/
theorem neighbour_table (X : FVec Ideal S100000x64 .f32) (W : FVec Ideal S64x64 .f32) :
    Host.dotGeneral (F := Ideal) (φ₁ := .f32) (φ₂ := .f32) dot_S100000x64_S64x64_S100000x64_1_0_0_1_n_n none X W = rowsTimes X W :=
  dotGeneral_eq_rowsTimes (φ₁ := .f32) (φ₂ := .f32) _ none X W

/-- The reference's own table is the own features' rows times the transposed own weights, plus the bias. -/
theorem own_table (X : FVec Ideal S100000x64 .f32) (W : FVec Ideal S64x64 .f32) (b : FVec Ideal S64 .f32) :
    addf (F := Ideal) (φ := .f32)
        (Host.dotGeneral (F := Ideal) (φ₁ := .f32) (φ₂ := .f32) dot_S100000x64_S64x64_S100000x64_1_0_0_1_n_n none X W)
        (broadcastInDim S100000x64 ![0, 1] Facts₀.bcast_S1x64_S100000x64_0_1 (broadcastInDim S1x64 ![1] Facts₀.bcast_S64_S1x64_1 b))
      = affineRows X W b := by
  funext i
  show Host.dotGeneral (F := Ideal) (φ₁ := .f32) (φ₂ := .f32) dot_S100000x64_S64x64_S100000x64_1_0_0_1_n_n none X W i
      + broadcastInDim S100000x64 ![0, 1] Facts₀.bcast_S1x64_S100000x64_0_1 (broadcastInDim S1x64 ![1] Facts₀.bcast_S64_S1x64_1 b) i
      = rowsTimes X W i + b (ix1 (i 1))
  rw [bias_over_table]
  exact congrArg (· + b (ix1 (i 1))) (congrFun (neighbour_table X W) i)

/-- The whole layer as one function of the seven arguments (neighbour features, own features, edge list, edge
    weights, neighbour weights, own weights, bias): the own features' rows times the transposed own weights plus the
    bias, with every edge's message from the neighbour features' rows times the transposed neighbour weights added in. -/
def layer (xn xo : FVec Ideal S100000x64 .f32) (e : IVec S2x1250000 32) (w : FVec Ideal S1250000 .f32)
    (Wn Wo : FVec Ideal S64x64 .f32) (b : FVec Ideal S64 .f32) : FVec Ideal S100000x64 .f32 :=
  scatterMessages
    (affineRows xo (transpose S64x64 [1, 0] Wo Facts₀.transposes_S64x64_S64x64_1_0) b)
    (rowsTimes xn (transpose S64x64 [1, 0] Wn Facts₀.transposes_S64x64_S64x64_1_0))
    e w

variable (m : (ℓ : Loc nD τ sig) → Buf (Elt Ideal) ℓ) (ρ : Dev nD → PrngReg)

/-- What the reference leaves in its result: the layer of its arguments. -/
abbrev result (c : Dev nD) : FVec Ideal S100000x64 .f32 :=
  layer (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The reference's run, with its result at `result` and its arguments unchanged. -/
theorem run : θ_run (defs (F := Ideal)) (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Cert.ReferenceIdeal.Value.run (F := Ideal) m ρ)
  show scatterMessages
      (addf (F := Ideal) (φ := .f32)
        (Host.dotGeneral (F := Ideal) (φ₁ := .f32) (φ₂ := .f32) dot_S100000x64_S64x64_S100000x64_1_0_0_1_n_n none (m ((c.tc : Thread nD τ).loc main_arg1))
          (transpose S64x64 [1, 0] (m ((c.tc : Thread nD τ).loc main_arg5)) Facts₀.transposes_S64x64_S64x64_1_0))
        (broadcastInDim S100000x64 ![0, 1] Facts₀.bcast_S1x64_S100000x64_0_1
          (broadcastInDim S1x64 ![1] Facts₀.bcast_S64_S1x64_1 (m ((c.tc : Thread nD τ).loc main_arg6)))))
      (Host.dotGeneral (F := Ideal) (φ₁ := .f32) (φ₂ := .f32) dot_S100000x64_S64x64_S100000x64_1_0_0_1_n_n none (m ((c.tc : Thread nD τ).loc main_arg0))
        (transpose S64x64 [1, 0] (m ((c.tc : Thread nD τ).loc main_arg4)) Facts₀.transposes_S64x64_S64x64_1_0))
      (m ((c.tc : Thread nD τ).loc main_arg2)) (m ((c.tc : Thread nD τ).loc main_arg3)) = _
  rw [own_table, neighbour_table]
  rfl

end Cert.ReferenceIdeal.Messages

end
-- ==== Proof.KernelResult.lean ====
/-
  The kernel program's result.

  After the region the program's remaining host lines gather, scale and scatter-add exactly as the reference's do,
  starting from the two tables the region left: the neighbour result (read back from its shorter float format, which at
  the exact extended reals changes nothing) and the own result. With the region's two tables known as functions of the
  arguments, the program's result is the same layer function of its seven arguments that the reference computes.
-/
import proofs.«150834_j23124103921910_2_alg».proof.Proof.TablesAfterRegion
import proofs.«150834_j23124103921910_2_alg».proof.Proof.EdgeMessages

noncomputable section

open Idealize.ShloMosaic Idealize.ShloMosaic.TcCoe Idealize.SL.Sem
open Idealize.ShloMosaic.Pipeline (Dat)

namespace Cert.KernelIdeal.ResultValue

open Cert.KernelIdeal Cert.KernelIdeal.Gen Cert.KernelIdeal.RegionValue Cert.Linear
open Cert.ReferenceIdeal.Messages (layer)

variable (m : (ℓ : Loc nD τ sig) → Buf (Elt Ideal) ℓ) (ρ : Dev nD → PrngReg)

/-- What the kernel program leaves in its result: the layer of its arguments. -/
abbrev result (c : Dev nD) : FVec Ideal S100000x64 .f32 :=
  layer (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

set_option maxHeartbeats 2000000 in
/-- The host lines after the region, run over the region's two tables and the untouched edge list and weights, give
    the layer of the arguments. -/
theorem tail_value (c : Dev nD) :
    Pipeline.afterTail₀ cfgs (dats m) 0 (V0 m) [hostOps1] c main_v25 = result m c := by
  have e5 : Pipeline.withArrays (cfgs 0).spec c (V0 m c) (fun w => (dats m 0 c).arrAt w (cfgs 0).N) (Proc.devRef .tc main_v3_0)
      = rowsTimes (m ((c : Thread nD τ).loc main_arg0))
          (transpose S64x64 [1, 0] (m ((c : Thread nD τ).loc main_arg4)) Facts₀.transposes_S64x64_S64x64_1_0) :=
    (Pipeline.withArrays_arr spec0 launch0.win.arr_inj c _ _ 5).trans (neighbour_final m c)
  have e6 : Pipeline.withArrays (cfgs 0).spec c (V0 m c) (fun w => (dats m 0 c).arrAt w (cfgs 0).N) (Proc.devRef .tc main_v3_1)
      = affineRows (m ((c : Thread nD τ).loc main_arg1))
          (transpose S64x64 [1, 0] (m ((c : Thread nD τ).loc main_arg5)) Facts₀.transposes_S64x64_S64x64_1_0)
          (m ((c : Thread nD τ).loc main_arg6)) :=
    (Pipeline.withArrays_arr spec0 launch0.win.arr_inj c _ _ 6).trans (own_final m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v25) = _
  after_results_simp
  rw [e5, e6, e2, e3]
  rfl

/-- The kernel program's run, with its result at `result` and its arguments unchanged. -/
theorem run : θ_run (defs (F := Ideal)) (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v25 (Pipeline.mem_restRefs_of main_v25 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ResultValue

end
-- ==== Proof.lean ====
/-
  The certificate of a graph layer: a dense linear kernel followed by message passing along edges, against its
  plain reference.

  The layer. Two tables of 100000 rows of 64 features (neighbour side and own side), an edge list of 1250000 (source,
  destination) pairs with one weight per edge, two 64 × 64 weight matrices and a bias. The result starts as the own
  features' rows times the transposed own weights plus the bias; then every edge adds, into the row at its destination,
  the row at its source of the neighbour features' rows times the transposed neighbour weights, scaled by the edge's
  weight.

  The kernel program computes the two dense products on the matrix unit, tile by tile (twenty tiles of 5000 rows),
  after rounding the loaded tiles and the neighbour product to a shorter float format; the host transposes the weights
  before the region and does the gather, the scaling and the scatter-add after it. The reference does everything on the
  host. At the exact extended reals a change of float format is the identity, the matrix unit's product into zeros and
  the host's product are the same sum of the same sixty-four products per entry, and the tiles cover the tables; so the
  two tables that go into the edge stage are equal as functions of the arguments, and the edge stage — the same chain of
  host operations in both programs — is carried as one function and never opened. No algebraic law of the extended
  reals is used, hence the precondition (finite inputs) is not needed for the equality.

  The three frames: the two kernel programs' are the generated frame certificates; the reference has no kernel, and
  its frame is its run with the result dropped. The idealized kernel is the kernel's own text read at the exact
  instance: the pass rewrote nothing, and the "preserves" conjunct is trivial.
-/
import proofs.«150834_j23124103921910_2_alg».proof.Defs
import proofs.«150834_j23124103921910_2_alg».proof.Proof.Gen.Kernel
import proofs.«150834_j23124103921910_2_alg».proof.Proof.Gen.Kernel.Frame
import proofs.«150834_j23124103921910_2_alg».proof.Proof.Gen.KernelIdeal
import proofs.«150834_j23124103921910_2_alg».proof.Proof.Gen.KernelIdeal.Frame
import proofs.«150834_j23124103921910_2_alg».proof.Proof.Gen.ReferenceIdeal
import proofs.«150834_j23124103921910_2_alg».proof.Proof.Gen.ReferenceIdeal.Run
import proofs.«150834_j23124103921910_2_alg».proof.Proof.Gen.Pre_finite_inputs
import proofs.«150834_j23124103921910_2_alg».proof.Proof.KernelResult
import proofs.«150834_j23124103921910_2_alg».proof.Proof.EdgeMessages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their arguments, and the arguments agree. -/
theorem algebraic : Cert.algebraic_KernelIdeal_ReferenceIdeal := by
  intro m ρ m' ρ' _ hagree
  refine ⟨fun c => Cert.KernelIdeal.ResultValue.result m c, Cert.KernelIdeal.ResultValue.run m ρ, ?_⟩
  refine (θ_run Cert.ReferenceIdeal.defs _ _).mono (fun _ h c => ⟨(h c).1.trans ?_, (h c).2⟩)
    (Cert.ReferenceIdeal.Messages.run m' ρ')
  obtain ⟨a0, a1, a2, a3, a4, a5, a6⟩ := hagree c
  show Cert.ReferenceIdeal.Messages.layer _ _ _ _ _ _ _ = Cert.ReferenceIdeal.Messages.layer _ _ _ _ _ _ _
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
